-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S3072x1024 : Shape := ⟨2, ![3072, 1024]⟩
abbrev S3072 : Shape := ⟨1, ![3072]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S32768x1024 .f32) (main_arg1 : FVec F S3072x1024 .f32) (main_arg2 : FVec F S3072 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S32768x1024 : Shape := ⟨2, ![32768, 1024]⟩
abbrev S3072x1024 : Shape := ⟨2, ![3072, 1024]⟩
abbrev S3072 : Shape := ⟨1, ![3072]⟩
abbrev S1024x3072 : Shape := ⟨2, ![1024, 3072]⟩
abbrev S16x2097152 : Shape := ⟨2, ![16, 2097152]⟩
abbrev S512x1024 : Shape := ⟨2, ![512, 1024]⟩
abbrev S16x32768 : Shape := ⟨2, ![16, 32768]⟩
abbrev S512x3072 : Shape := ⟨2, ![512, 3072]⟩
abbrev S1x3072 : Shape := ⟨2, ![1, 3072]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩
abbrev S16x512x64 : Shape := ⟨3, ![16, 512, 64]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S3072x1024, .f32⟩
  | .hbm, ⟨2, _⟩ => ⟨S3072, .f32⟩
  | .hbm, ⟨3, _⟩ => ⟨S1024x3072, .f32⟩
  | .hbm, ⟨4, _⟩ => ⟨S1024x3072, .bf16⟩
  | .hbm, ⟨5, _⟩ => ⟨S16x2097152, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S16x32768, .f32⟩
  | .local _ .vmem, ⟨5, _⟩ => ⟨S16x32768, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  reduces_S512x16x16_S512x16 : S512x16x16.Reduces [2] S512x16
  shapeCasts_S512x16_S512x16x1 : S512x16.ShapeCasts S512x16x1
  broadcasts_S512x16x1_S512x16x16 : S512x16x1.Broadcasts S512x16x16
  transposes_S512x16x64_p1_0_2_S16x512x64 : S512x16x64.Transposes [1, 0, 2] S16x512x64
  shapeCasts_S16x512x64_S16x32768 : S16x512x64.ShapeCasts S16x32768
  inb_S16x32768_S16x32768_0_0 : ∀ a, (![0, 0] : Fin 2 → Nat) a + S16x32768.size a ≤ S16x32768.size a
  h_S16x32768 : 0 < S16x32768.numel
  shapeCasts_S16x2097152_S32768x1024 : S16x2097152.ShapeCasts S32768x1024
  dot_S512x1024_S1024x3072_S512x3072_1_0_0_1_n_n_wf : DotDims.WF S512x1024 S1024x3072 S512x3072 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32768.size a ≤ S16x2097152.size a
  hwx0_3 : ∀ i : grid0.Coords, EltTy.bits .f32 = 32 ∨ (Rect.block (s := S16x2097152) S16x32768.size (cc0_transform_3 i) (hinb0_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S3072x1024 : Shape := ⟨2, ![3072, 1024]⟩
abbrev S3072 : Shape := ⟨1, ![3072]⟩
abbrev S1024x3072 : Shape := ⟨2, ![1024, 3072]⟩
abbrev S32768x3072 : Shape := ⟨2, ![32768, 3072]⟩
abbrev S1x3072 : Shape := ⟨2, ![1, 3072]⟩
abbrev S32768x3x16x64 : Shape := ⟨4, ![32768, 3, 16, 64]⟩
abbrev S32768x1x16x64 : Shape := ⟨4, ![32768, 1, 16, 64]⟩
abbrev S32768x16x64 : Shape := ⟨3, ![32768, 16, 64]⟩
abbrev S32768x16x16 : Shape := ⟨3, ![32768, 16, 16]⟩
abbrev S_ : Shape := ⟨0, ![]⟩
abbrev S32768x16 : Shape := ⟨2, ![32768, 16]⟩
abbrev S32768x16x1 : Shape := ⟨3, ![32768, 16, 1]⟩
abbrev S16x32768x64 : Shape := ⟨3, ![16, 32768, 64]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S3072x1024, .f32⟩
  | .hbm, ⟨2, _⟩ => ⟨S3072, .f32⟩
  | .hbm, ⟨3, _⟩ => ⟨S1024x3072, .f32⟩
  | .hbm, ⟨4, _⟩ => ⟨S32768x3072, .f32⟩
  | .hbm, ⟨5, _⟩ => ⟨S1x3072, .f32⟩
  | .hbm, ⟨6, _⟩ => ⟨S32768x3072, .f32⟩
  | .hbm, ⟨7, _⟩ => ⟨S32768x3072, .f32⟩
  | .hbm, ⟨8, _⟩ => ⟨S32768x3x16x64, .f32⟩
  | .hbm, ⟨9, _⟩ => ⟨S32768x1x16x64, .f32⟩
  | .hbm, ⟨10, _⟩ => ⟨S32768x16x64, .f32⟩
  | .hbm, ⟨11, _⟩ => ⟨S32768x1x16x64, .f32⟩
  | .hbm, ⟨12, _⟩ => ⟨S32768x16x64, .f32⟩
  | .hbm, ⟨13, _⟩ => ⟨S32768x1x16x64, .f32⟩
  | .hbm, ⟨14, _⟩ => ⟨S32768x16x64, .f32⟩
  | .hbm, ⟨15, _⟩ => ⟨S32768x16x16, .f32⟩
  | .hbm, ⟨16, _⟩ => ⟨S_, .f32⟩
  | .hbm, ⟨17, _⟩ => ⟨S32768x16x16, .f32⟩
  | .hbm, ⟨18, _⟩ => ⟨S32768x16x16, .f32⟩
  | .hbm, ⟨19, _⟩ => ⟨S_, .f32⟩
  | .hbm, ⟨20, _⟩ => ⟨S32768x16, .f32⟩
  | .hbm, ⟨21, _⟩ => ⟨S_, .f32⟩
  | .hbm, ⟨22, _⟩ => ⟨S32768x16, .f32⟩
  | .hbm, ⟨23, _⟩ => ⟨S32768x16, .f32⟩
  | .hbm, ⟨24, _⟩ => ⟨S32768x16x1, .f32⟩
  | .hbm, ⟨25, _⟩ => ⟨S32768x16x16, .f32⟩
  | .hbm, ⟨26, _⟩ => ⟨S32768x16x16, .f32⟩
  | .hbm, ⟨27, _⟩ => ⟨S32768x16x16, .f32⟩
  | .hbm, ⟨28, _⟩ => ⟨S_, .f32⟩
  | .hbm, ⟨29, _⟩ => ⟨S32768x16, .f32⟩
  | .hbm, ⟨30, _⟩ => ⟨S32768x16x1, .f32⟩
  | .hbm, ⟨31, _⟩ => ⟨S32768x16x16, .f32⟩
  | .hbm, ⟨32, _⟩ => ⟨S32768x16x16, .f32⟩
  | .hbm, ⟨33, _⟩ => ⟨S32768x16x64, .f32⟩
  | .hbm, ⟨34, _⟩ => ⟨S16x32768x64, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S32768x3072_0_1 : S1x3072.BroadcastsInDim S32768x3072 (![0, 1] : Fin 2 → Fin S32768x3072.rank)
  shapeCasts_S32768x3072_S32768x3x16x64 : S32768x3072.ShapeCasts S32768x3x16x64
  slices_S32768x3x16x64_S32768x1x16x64_0_0_0_0 : S32768x3x16x64.Slices ![0, 0, 0, 0] S32768x1x16x64
  shapeCasts_S32768x1x16x64_S32768x16x64 : S32768x1x16x64.ShapeCasts S32768x16x64
  slices_S32768x3x16x64_S32768x1x16x64_0_1_0_0 : S32768x3x16x64.Slices ![0, 1, 0, 0] S32768x1x16x64
  slices_S32768x3x16x64_S32768x1x16x64_0_2_0_0 : S32768x3x16x64.Slices ![0, 2, 0, 0] S32768x1x16x64
  bcast_S_S32768x16x16 : S_.BroadcastsInDim S32768x16x16 (![] : Fin 0 → Fin S32768x16x16.rank)
  reducesTo_S32768x16x16_S32768x16_d2 : S32768x16x16.ReducesTo [2] S32768x16
  h_S_ : 0 < S_.numel
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x16x1_S32768x16x16_0_1_2 : S32768x16x1.BroadcastsInDim S32768x16x16 (![0, 1, 2] : Fin 3 → Fin S32768x16x16.rank)
  transposes_S32768x16x64_S16x32768x64_1_0_2 : S32768x16x64.Transposes [1, 0, 2] S16x32768x64
  shapeCasts_S16x32768x64_S32768x1024 : S16x32768x64.ShapeCasts S32768x1024
  dot_S32768x1024_S1024x3072_S32768x3072_1_0_0_1_n_n_wf : DotDims.WF S32768x1024 S1024x3072 S32768x3072 [1] [0] [0] [1] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32768x1024_S1024x3072_S32768x3072_1_0_0_1_n_n : DotDims S32768x1024 S1024x3072 S32768x3072 where
  lhsContracting := [1]
  rhsContracting := [0]
  lhsNonContracting := [0]
  rhsNonContracting := [1]
  lhsBatch := []
  rhsBatch := []
  wf := dot_S32768x1024_S1024x3072_S32768x3072_1_0_0_1_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.HeadAttention.lean ====
/-
  Attention across the sixteen heads of ONE token, over the extended reals.

  A token's projected row `x` has 3072 entries: entries `64 i + e` are lane `e` of head `i`'s query, entries
  `1024 + 64 j + e` of head `j`'s key, entries `2048 + 64 j + e` of head `j`'s value.  The score of the head pair
  `(i, j)` is the dot product of query `i` with key `j` over the 64 lanes times `1/32`; row `i` of the scores is
  normalised by a softmax (subtract the row's maximum, exponentiate, divide by the row's sum); and the output of head `i`
  at lane `d` is the sum over `j` of the weight of `(i, j)` times lane `d` of value `j`.

  The projected row of token `n` is `x c = (∑ k, H (n, k) · W (c, k)) + B c`.  The result array lists the outputs
  head-major: flat position `2097152 i + 64 n + d` holds the output of head `i` of token `n` at lane `d`.

  Two spellings of the same numbers meet here: a division by `32` against a product with `1/32` (equal on every
  extended real, the infinities included), and a running maximum started from `-∞` taken once more against `-∞`.
-/
import Mathlib.Data.Finset.Fold
import Idealize.ShloMosaic.PureOps.Ideal
import Idealize.ShloMosaic.PureOps.Ideal.Laws
import Idealize.ShloMosaic.Lib.ValueIdx

noncomputable section

namespace Cert.HeadAttention

open Idealize.ShloMosaic Idealize.ShloMosaic.ValueIdx

/-! ## Where a head's query, key and value sit in the projected row -/

/-- Lane `e` of head `i`'s query. -/
def qcol (i : Fin 16) (e : Fin 64) : Fin 3072 := ⟨i.val * 64 + e.val, by have := i.isLt; have := e.isLt; omega⟩
/-- Lane `e` of head `j`'s key. -/
def kcol (j : Fin 16) (e : Fin 64) : Fin 3072 := ⟨1024 + (j.val * 64 + e.val), by have := j.isLt; have := e.isLt; omega⟩
/-- Lane `e` of head `j`'s value. -/
def vcol (j : Fin 16) (e : Fin 64) : Fin 3072 := ⟨2048 + (j.val * 64 + e.val), by have := j.isLt; have := e.isLt; omega⟩

/-! ## The two constants -/

/-- The pattern `0x3D000000` denotes `1/32`. -/
theorem ofBits_inv32 : Ideal.ofBits .f32 0x3D000000#32 = ((1 / 32 : ℝ) : EReal) := by
  simp [Ideal.ofBits, Ideal.ieee, -EReal.coe_mul]; norm_num

/-- The pattern `0x42000000` denotes `32`. -/
theorem ofBits_32 : Ideal.ofBits .f32 0x42000000#32 = ((32 : ℝ) : EReal) := by
  simp [Ideal.ofBits, Ideal.ieee, -EReal.coe_mul]; norm_num

/-- Dividing by `32` is multiplying by `1/32`, on every extended real. -/
theorem div32_eq (s : EReal) :
    Ideal.div s (Ideal.ofBits .f32 0x42000000#32) = s * Ideal.ofBits .f32 0x3D000000#32 := by
  rw [ofBits_32, ofBits_inv32, Ideal.div_coe (by norm_num)]

/-- A maximum folded from `b` is at least `b`, so taking it against `b` once more changes nothing. -/
theorem max_init_fold (b : EReal) (f : Fin 16 → EReal) :
    max b ((Finset.univ : Finset (Fin 16)).fold max b f) = (Finset.univ : Finset (Fin 16)).fold max b f :=
  max_eq_right ((Finset.le_fold_max (s := (Finset.univ : Finset (Fin 16))) (f := f) (b := b) (c := b)).2 (Or.inl le_rfl))

/-! ## One token -/

/-- The scaled score of query head `i` against key head `j`. -/
def score (x : Fin 3072 → EReal) (i j : Fin 16) : EReal :=
  (∑ e : Fin 64, x (qcol i e) * x (kcol j e)) * Ideal.ofBits .f32 0x3D000000#32

/-- The maximum of row `i` of the scores, folded from `-∞`. -/
def rowMax (x : Fin 3072 → EReal) (i : Fin 16) : EReal :=
  (Finset.univ : Finset (Fin 16)).fold max (Ideal.ofBits .f32 0xFF800000#32) (fun j => score x i j)

/-- The exponential of a score less its row's maximum. -/
def expo (x : Fin 3072 → EReal) (i j : Fin 16) : EReal := Ideal.exp (score x i j - rowMax x i)

/-- The softmax weight of the head pair `(i, j)`. -/
def weight (x : Fin 3072 → EReal) (i j : Fin 16) : EReal := Ideal.div (expo x i j) (∑ l : Fin 16, expo x i l)

/-- The output of head `i` at lane `d`: the weighted sum of the values' lane `d`. -/
def headOut (x : Fin 3072 → EReal) (i : Fin 16) (d : Fin 64) : EReal := ∑ j : Fin 16, weight x i j * x (vcol j d)

/-! ## The whole arrays -/

/-- The projected row of token `n`: the input row times the weight matrix transposed, plus the bias. -/
def tokenRow (H : (⟨2, ![32768, 1024]⟩ : Shape).Idx → EReal) (W : (⟨2, ![3072, 1024]⟩ : Shape).Idx → EReal)
    (B : (⟨1, ![3072]⟩ : Shape).Idx → EReal) (n : Fin 32768) (c : Fin 3072) : EReal :=
  (∑ k : Fin 1024, H (ix2 n k) * W (ix2 c k)) + B (ix1 c)

/-- The head-major array at row `i` (a head) and column `q = 64 n + d` (token `n`, lane `d`). -/
def headMajorAt (H : (⟨2, ![32768, 1024]⟩ : Shape).Idx → EReal) (W : (⟨2, ![3072, 1024]⟩ : Shape).Idx → EReal)
    (B : (⟨1, ![3072]⟩ : Shape).Idx → EReal) (i : Fin 16) (q : Fin 2097152) : EReal :=
  headOut (tokenRow H W B ⟨q.val / 64, by have := q.isLt; omega⟩) i ⟨q.val % 64, by omega⟩

/-- The head-major array `[16, 2097152]`. -/
def headMajor (H : (⟨2, ![32768, 1024]⟩ : Shape).Idx → EReal) (W : (⟨2, ![3072, 1024]⟩ : Shape).Idx → EReal)
    (B : (⟨1, ![3072]⟩ : Shape).Idx → EReal) : (⟨2, ![16, 2097152]⟩ : Shape).Idx → EReal :=
  fun j => headMajorAt H W B (j 0) (j 1)

/-- The result `[32768, 1024]`: the head-major array's entries in the same flat order. -/
def resultAt (H : (⟨2, ![32768, 1024]⟩ : Shape).Idx → EReal) (W : (⟨2, ![3072, 1024]⟩ : Shape).Idx → EReal)
    (B : (⟨1, ![3072]⟩ : Shape).Idx → EReal) (r : Fin 32768) (c : Fin 1024) : EReal :=
  headMajorAt H W B ⟨(r.val * 1024 + c.val) / 2097152, by have := r.isLt; have := c.isLt; omega⟩
    ⟨(r.val * 1024 + c.val) % 2097152, by omega⟩

/-- The result array. -/
def result (H : (⟨2, ![32768, 1024]⟩ : Shape).Idx → EReal) (W : (⟨2, ![3072, 1024]⟩ : Shape).Idx → EReal)
    (B : (⟨1, ![3072]⟩ : Shape).Idx → EReal) : (⟨2, ![32768, 1024]⟩ : Shape).Idx → EReal :=
  fun i => resultAt H W B (i 0) (i 1)

end Cert.HeadAttention

end
-- ==== Proof.LibHeadLayout.lean ====
/-
  Layout operations and a row maximum read at an index given by coordinates, for arrays whose last axis is a run of
  `b` groups of `c` lanes: the last axis split in two by a shape cast (`[a, b·c] → [a, b, c]`, row-major), the last
  two axes merged (`[a, b, c] → [a, b·c]`), the first two axes of a rank-3 array exchanged by a transpose, and the
  maximum over the last axis of a rank-3 array — the vector unit's and the host's — as the fold of `max` over that
  axis's coordinates.
-/
import Idealize.ShloMosaic.Lib.ValueIdx
import Idealize.ShloMosaic.Lib.Pipeline.Value
import Idealize.ShloMosaic.PureOps.Ideal.Laws

noncomputable section

namespace Cert.HeadLayout

open Idealize.ShloMosaic Idealize.ShloMosaic.ValueIdx

variable {α : Type}

/-! ## The last axis split and merged -/

/-- An `[a, m]` array with `m = b · c` cast to `[a, b, c]` reads, at `(i, j, d)`, the operand at `(i, q)` with
    `q = j · c + d`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (d : Fin c)
    (q : Fin m) (hq : q.val = j.val * c + d.val) :
    shapeCast ⟨3, ![a, b, c]⟩ x h (ix3 i j d) = x (ix2 i q) :=
  shapeCast_apply x h _ _ (by
    rw [Shape.rowMajor_val_three, Shape.rowMajor_val_two]
    show i.val * m + q.val = (i.val * b + j.val) * c + d.val
    rw [hq, hm]
    ring)

/-- An `[a, b, c]` array cast to `[a, m]` with `m = b · c` reads, at `(i, q)` with `q = j · c + d`, the operand at
    `(i, j, d)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (q : Fin m) (j : Fin b)
    (d : Fin c) (hq : q.val = j.val * c + d.val) :
    shapeCast ⟨2, ![a, m]⟩ x h (ix2 i q) = x (ix3 i j d) :=
  shapeCast_apply x h _ _ (by
    rw [Shape.rowMajor_val_three, Shape.rowMajor_val_two]
    show (i.val * b + j.val) * c + d.val = i.val * m + q.val
    rw [hq, hm]
    ring)

/-! ## The first two axes exchanged -/

/-- An `[a, b, c]` array transposed by the permutation `[1, 0, 2]` reads, at `(j, i, d)`, the operand at
    `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun e => match e with | ⟨0, _⟩ => rfl | ⟨1, _⟩ => rfl | ⟨2, _⟩ => rfl

/-! ## The maximum over the last axis -/

/-- The vector unit's maximum of an `[a, b, c]` array over its last axis reads, at `(i, j)`, the fold of `max` from
    `-∞` (the accumulator's pattern) over `d` of the array at `(i, j, d)`. -/
theorem laneMax_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun d => src (ix3 i j d)) := by
  refine (Ideal.multiReduction_maximumf_single src 0xFF800000#32 h hφ hacc (ix2 i j)).trans ?_
  exact congrArg (fun f => (Finset.univ : Finset (Fin c)).fold max (Ideal.ofBits .f32 0xFF800000#32) f)
    (funext fun d => congrArg src (funext fun ax => Fin.ext (by
      match ax with
      | ⟨0, _⟩ => rfl
      | ⟨1, _⟩ => rfl
      | ⟨2, _⟩ => rfl)))

/-- The host's maximum of an `[a, b, c]` array over its last axis reads, at `(i, j)`, the fold of `max` from the
    initial value over `d` of the array at `(i, j, d)`. -/
theorem hostLaneMax_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := .f32)) x init h' hu (ix2 i j)
      = (Finset.univ : Finset (Fin c)).fold max (init (Shape.Idx.first hu)) (fun d => x (ix3 i j d)) := by
  refine (Host.reduce_eq_fold_single (FloatOps.maximumf (F := Ideal) (φ := .f32)) x init h' h hu (ix2 i j)).trans ?_
  exact congrArg (fun f => (Finset.univ : Finset (Fin c)).fold max (init (Shape.Idx.first hu)) f)
    (funext fun d => congrArg x (funext fun ax => Fin.ext (by
      match ax with
      | ⟨0, _⟩ => rfl
      | ⟨1, _⟩ => rfl
      | ⟨2, _⟩ => rfl)))

end Cert.HeadLayout

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.BlockValue.lean ====
/-
  What the kernel body stores for one block of 512 tokens, read at an index.

  The body's stored value is a composition of six stages, each taken here as a function of its operands and read at
  an index given by coordinates: the projection of the block's rows (a matrix product into a zero accumulator plus the
  bias row); the three column bands of the projection regrouped as sixteen heads of 64 lanes (queries, keys, values);
  the scaled scores of every head pair (a product contracted over the lanes, batched over the tokens); the softmax of
  each score row; the weighted sum of the values (a product contracted over the key heads); and the head-major
  relayout (heads first, then tokens and lanes merged).  Narrowing to sixteen bits and widening back are the identity on
  extended reals.  Composed, the stored value at row `i` and column `64 p + d` is the attention output of head `i` of
  the block's token `p` at lane `d`, computed from that token's projected row.
-/
import proofs.«114477_j34342558499464_2_alg».proof.Proof.Gen.KernelIdeal.Skeleton
import proofs.«114477_j34342558499464_2_alg».proof.Proof.HeadAttention
import proofs.«114477_j34342558499464_2_alg».proof.Proof.LibHeadLayout
import proofs.«114477_j34342558499464_2_alg».proof.Proof.LibKeepdimsLayout
import Idealize.ShloMosaic.Lib.ValueLayout

noncomputable section

namespace Cert.KernelIdeal.Block

open Idealize.ShloMosaic Idealize.ShloMosaic.ValueIdx
open Cert.KernelIdeal Cert.KernelIdeal.Gen Cert.HeadAttention Cert.HeadLayout Cert.KernelIdeal.PayLayout

/-! ## The stages -/

/-- The block's projection: its 512 rows times the transposed weights, plus the bias row. -/
def qkvBlock (x0 : Vec Ideal S512x1024 .f32) (x1 : Vec Ideal S1024x3072 .bf16) (x2 : Vec Ideal S3072 .f32) :
    FVec Ideal S512x3072 .f32 :=
  addf (matmul dot_S512x1024_S1024x3072_S512x3072_1_0_0_1_n_n none (truncf .bf16 (x0 : FVec Ideal S512x1024 .f32) bitsLt_bf16_f32 : FVec Ideal S512x1024 .bf16)
      (shapeCast S1024x3072 x1 shapeCasts_S1024x3072_S1024x3072 : FVec Ideal S1024x3072 .bf16)
      (constant S512x3072 .f32 0x00000000#32))
    (broadcastTo S512x3072 (shapeCast S1x3072 x2 shapeCasts_S3072_S1x3072 : FVec Ideal S1x3072 .f32)
      broadcasts_S1x3072_S512x3072)

/-- Columns 0 … 1023 of the projection as sixteen heads of 64 lanes. -/
def queries (y : FVec Ideal S512x3072 .f32) : FVec Ideal S512x16x64 .bf16 :=
  truncf .bf16 (shapeCast S512x16x64 (extractStridedSlice S512x1024 ![0, 0] y slices_S512x3072_o0_0_S512x1024)
    shapeCasts_S512x1024_S512x16x64) bitsLt_bf16_f32

/-- Columns 1024 … 2047 likewise. -/
def keys (y : FVec Ideal S512x3072 .f32) : FVec Ideal S512x16x64 .bf16 :=
  truncf .bf16 (shapeCast S512x16x64 (extractStridedSlice S512x1024 ![0, 1024] y slices_S512x3072_o0_1024_S512x1024)
    shapeCasts_S512x1024_S512x16x64) bitsLt_bf16_f32

/-- Columns 2048 … 3071 likewise. -/
def values (y : FVec Ideal S512x3072 .f32) : FVec Ideal S512x16x64 .bf16 :=
  truncf .bf16 (shapeCast S512x16x64 (extractStridedSlice S512x1024 ![0, 2048] y slices_S512x3072_o0_2048_S512x1024)
    shapeCasts_S512x1024_S512x16x64) bitsLt_bf16_f32

/-- The scaled scores: per token, queries against keys over the lanes, times `1/32`. -/
def scores (Q K : FVec Ideal S512x16x64 .bf16) : FVec Ideal S512x16x16 .f32 :=
  mulf (matmul dot_S512x16x64_S512x16x64_S512x16x16_2_2_1_1_0_0 none Q K (constant S512x16x16 .f32 0x00000000#32))
    (broadcast S512x16x16 (Scalar.ofBits .f32 0x3D000000#32))

/-- The scores less their row's maximum, exponentiated. -/
def shifted (S : FVec Ideal S512x16x16 .f32) : FVec Ideal S512x16x16 .f32 :=
  exp (subf S (broadcastTo S512x16x16 (shapeCast S512x16x1
    (multiReduction .maximumf [2] S512x16 S 0xFF800000#32 reduces_S512x16x16_S512x16 (.inl rfl) rfl)
    shapeCasts_S512x16_S512x16x1) broadcasts_S512x16x1_S512x16x16))

/-- Each exponential divided by its row's sum. -/
def normalised (E : FVec Ideal S512x16x16 .f32) : FVec Ideal S512x16x16 .bf16 :=
  truncf .bf16 (divf E (broadcastTo S512x16x16 (shapeCast S512x16x1
    (multiReduction .add [2] S512x16 E 0x00000000#32 reduces_S512x16x16_S512x16 (.inl rfl) rfl)
    shapeCasts_S512x16_S512x16x1) broadcasts_S512x16x1_S512x16x16)) bitsLt_bf16_f32

/-- The weights applied to the values: per token, contracted over the key heads. -/
def mixed (A : FVec Ideal S512x16x16 .bf16) (V : FVec Ideal S512x16x64 .bf16) : FVec Ideal S512x16x64 .f32 :=
  matmul dot_S512x16x16_S512x16x64_S512x16x64_2_1_1_2_0_0 none A V (constant S512x16x64 .f32 0x00000000#32)

/-- Heads first, then each head's 512 · 64 entries in one row. -/
def headMajorBlock (O : FVec Ideal S512x16x64 .f32) : FVec Ideal S16x32768 .f32 :=
  shapeCast S16x32768 (transpose S16x512x64 [1, 0, 2] O transposes_S512x16x64_p1_0_2_S16x512x64)
    shapeCasts_S16x512x64_S16x32768

/-- The body's stored value is the composition of the stages. -/
theorem pay_eq (x0 : Vec Ideal S512x1024 .f32) (x1 : Vec Ideal S1024x3072 .bf16) (x2 : Vec Ideal S3072 .f32) :
    k0_pay1 (F := Ideal) x0 x1 x2
      = headMajorBlock (mixed (normalised (shifted (scores (queries (qkvBlock x0 x1 x2)) (keys (qkvBlock x0 x1 x2)))))
          (values (qkvBlock x0 x1 x2))) := rfl

/-! ## The projection at an index -/

theorem proj_l0 (j : S512x3072.Idx) (q : dot_S512x1024_S1024x3072_S512x3072_1_0_0_1_n_n.contr.Idx) : (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem proj_l1 (j : S512x3072.Idx) (q : dot_S512x1024_S1024x3072_S512x3072_1_0_0_1_n_n.contr.Idx) : (dot_S512x1024_S1024x3072_S512x3072_1_0_0_1_n_n.lhsIdx j q 1).val = (q ⟨0, by decide⟩).val :=
  dot_S512x1024_S1024x3072_S512x3072_1_0_0_1_n_n.lhsIdx_val_of_single rfl j q
theorem proj_r0 (j : S512x3072.Idx) (q : dot_S512x1024_S1024x3072_S512x3072_1_0_0_1_n_n.contr.Idx) : (dot_S512x1024_S1024x3072_S512x3072_1_0_0_1_n_n.rhsIdx j q 0).val = (q ⟨0, by decide⟩).val :=
  dot_S512x1024_S1024x3072_S512x3072_1_0_0_1_n_n.rhsIdx_val_of_single rfl j q
theorem proj_r1 (j : S512x3072.Idx) (q : dot_S512x1024_S1024x3072_S512x3072_1_0_0_1_n_n.contr.Idx) : (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The projection at `(p, c)`: row `p` of the block against column `c` of the transposed weights, plus bias `c`. -/
theorem qkvBlock_apply (x0 : Vec Ideal S512x1024 .f32) (x1 : Vec Ideal S1024x3072 .bf16) (x2 : Vec Ideal S3072 .f32)
    (p : Fin 512) (c : Fin 3072) :
    qkvBlock x0 x1 x2 (ix2 p c) = (∑ k : Fin 1024, x0 (ix2 p k) * x1 (ix2 k c)) + x2 (ix1 c) := by
  unfold qkvBlock
  rw [shapeCast_self, addf_apply,
    matmul_zero_ix2_apply dot_S512x1024_S1024x3072_S512x3072_1_0_0_1_n_n rfl rfl proj_l0 proj_l1 proj_r0 proj_r1,
    broadcastTo_1b_ab_apply, shapeCast_a_1a_apply]
  rfl

/-! ## The three bands as heads -/

theorem queries_apply (y : FVec Ideal S512x3072 .f32) (p : Fin 512) (i : Fin 16) (e : Fin 64) :
    queries y (ix3 p i e) = y (ix2 p (qcol i e)) := by
  show shapeCast S512x16x64 (extractStridedSlice S512x1024 ![0, 0] y slices_S512x3072_o0_0_S512x1024)
    shapeCasts_S512x1024_S512x16x64 (ix3 p i e) = _
  rw [shapeCast_am_abc_apply _ _ (by norm_num : 1024 = 16 * 64) p i e
      ⟨i.val * 64 + e.val, by have := i.isLt; have := e.isLt; omega⟩ rfl,
    slice2_axis1_apply 0 y _ p _ (qcol i e) (by show i.val * 64 + e.val = 0 + (i.val * 64 + e.val); omega)]

theorem keys_apply (y : FVec Ideal S512x3072 .f32) (p : Fin 512) (j : Fin 16) (e : Fin 64) :
    keys y (ix3 p j e) = y (ix2 p (kcol j e)) := by
  show shapeCast S512x16x64 (extractStridedSlice S512x1024 ![0, 1024] y slices_S512x3072_o0_1024_S512x1024)
    shapeCasts_S512x1024_S512x16x64 (ix3 p j e) = _
  rw [shapeCast_am_abc_apply _ _ (by norm_num : 1024 = 16 * 64) p j e
      ⟨j.val * 64 + e.val, by have := j.isLt; have := e.isLt; omega⟩ rfl,
    slice2_axis1_apply 1024 y _ p _ (kcol j e) rfl]

theorem values_apply (y : FVec Ideal S512x3072 .f32) (p : Fin 512) (j : Fin 16) (e : Fin 64) :
    values y (ix3 p j e) = y (ix2 p (vcol j e)) := by
  show shapeCast S512x16x64 (extractStridedSlice S512x1024 ![0, 2048] y slices_S512x3072_o0_2048_S512x1024)
    shapeCasts_S512x1024_S512x16x64 (ix3 p j e) = _
  rw [shapeCast_am_abc_apply _ _ (by norm_num : 1024 = 16 * 64) p j e
      ⟨j.val * 64 + e.val, by have := j.isLt; have := e.isLt; omega⟩ rfl,
    slice2_axis1_apply 2048 y _ p _ (vcol j e) rfl]

/-! ## The scores at an index -/

theorem qk_l0 (j : S512x16x16.Idx) (q : dot_S512x16x64_S512x16x64_S512x16x16_2_2_1_1_0_0.contr.Idx) : (dot_S512x16x64_S512x16x64_S512x16x16_2_2_1_1_0_0.lhsIdx j q 0).val = (j 0).val := by
  unfold DotDims.lhsIdx
  rw [dif_pos (show (0 : Fin S512x16x64.rank) ∈ dot_S512x16x64_S512x16x64_S512x16x16_2_2_1_1_0_0.lhsBatch by decide)]
  rfl
theorem qk_l1 (j : S512x16x16.Idx) (q : dot_S512x16x64_S512x16x64_S512x16x16_2_2_1_1_0_0.contr.Idx) : (dot_S512x16x64_S512x16x64_S512x16x16_2_2_1_1_0_0.lhsIdx j q 1).val = (j 1).val := by
  unfold DotDims.lhsIdx
  rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
  rfl
theorem qk_l2 (j : S512x16x16.Idx) (q : dot_S512x16x64_S512x16x64_S512x16x16_2_2_1_1_0_0.contr.Idx) : (dot_S512x16x64_S512x16x64_S512x16x16_2_2_1_1_0_0.lhsIdx j q 2).val = (q ⟨0, by decide⟩).val :=
  dot_S512x16x64_S512x16x64_S512x16x16_2_2_1_1_0_0.lhsIdx_val_of_single rfl j q
theorem qk_r0 (j : S512x16x16.Idx) (q : dot_S512x16x64_S512x16x64_S512x16x16_2_2_1_1_0_0.contr.Idx) : (dot_S512x16x64_S512x16x64_S512x16x16_2_2_1_1_0_0.rhsIdx j q 0).val = (j 0).val := by
  unfold DotDims.rhsIdx
  rw [dif_pos (show (0 : Fin S512x16x64.rank) ∈ dot_S512x16x64_S512x16x64_S512x16x16_2_2_1_1_0_0.rhsBatch by decide)]
  rfl
theorem qk_r1 (j : S512x16x16.Idx) (q : dot_S512x16x64_S512x16x64_S512x16x16_2_2_1_1_0_0.contr.Idx) : (dot_S512x16x64_S512x16x64_S512x16x16_2_2_1_1_0_0.rhsIdx j q 1).val = (j 2).val := by
  unfold DotDims.rhsIdx
  rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
  rfl
theorem qk_r2 (j : S512x16x16.Idx) (q : dot_S512x16x64_S512x16x64_S512x16x16_2_2_1_1_0_0.contr.Idx) : (dot_S512x16x64_S512x16x64_S512x16x16_2_2_1_1_0_0.rhsIdx j q 2).val = (q ⟨0, by decide⟩).val :=
  dot_S512x16x64_S512x16x64_S512x16x16_2_2_1_1_0_0.rhsIdx_val_of_single rfl j q

/-- The score of token `p`'s head pair `(i, j)`: query `i` against key `j` over the lanes, times the scale. -/
theorem scores_apply (Q K : FVec Ideal S512x16x64 .bf16) (p : Fin 512) (i j : Fin 16) :
    scores Q K (ix3 p i j) = (∑ e : Fin 64, Q (ix3 p i e) * K (ix3 p j e)) * Ideal.ofBits .f32 0x3D000000#32 := by
  show (matmul dot_S512x16x64_S512x16x64_S512x16x16_2_2_1_1_0_0 none Q K (constant S512x16x16 .f32 0x00000000#32) (ix3 p i j)) * _ = _
  refine congrArg (· * Ideal.ofBits .f32 0x3D000000#32) ?_
  refine (Ideal.matmul_constant_zero_apply dot_S512x16x64_S512x16x64_S512x16x16_2_2_1_1_0_0 none Q K (ix3 p i j)).trans ?_
  rw [← Equiv.sum_comp (contrEquiv1 dot_S512x16x64_S512x16x64_S512x16x16_2_2_1_1_0_0 64 rfl rfl).symm]
  refine Finset.sum_congr rfl fun e _ => ?_
  have he := contrEquiv1_symm_val dot_S512x16x64_S512x16x64_S512x16x16_2_2_1_1_0_0 64 rfl rfl e
  have el : dot_S512x16x64_S512x16x64_S512x16x16_2_2_1_1_0_0.lhsIdx (ix3 p i j) ((contrEquiv1 dot_S512x16x64_S512x16x64_S512x16x16_2_2_1_1_0_0 64 rfl rfl).symm e) = ix3 p i e := funext fun ax => Fin.ext (by
    match ax with
    | ⟨0, _⟩ => exact qk_l0 _ _
    | ⟨1, _⟩ => exact qk_l1 _ _
    | ⟨2, _⟩ => exact (qk_l2 _ _).trans he)
  have er : dot_S512x16x64_S512x16x64_S512x16x16_2_2_1_1_0_0.rhsIdx (ix3 p i j) ((contrEquiv1 dot_S512x16x64_S512x16x64_S512x16x16_2_2_1_1_0_0 64 rfl rfl).symm e) = ix3 p j e := funext fun ax => Fin.ext (by
    match ax with
    | ⟨0, _⟩ => exact qk_r0 _ _
    | ⟨1, _⟩ => exact qk_r1 _ _
    | ⟨2, _⟩ => exact (qk_r2 _ _).trans he)
  rw [el, er]

/-! ## The softmax at an index -/

/-- A shifted exponential at `(p, i, j)`: the score less the fold of `max` over its row, exponentiated. -/
theorem shifted_apply (S : FVec Ideal S512x16x16 .f32) (p : Fin 512) (i j : Fin 16) :
    shifted S (ix3 p i j)
      = Ideal.exp (S (ix3 p i j)
          - (Finset.univ : Finset (Fin 16)).fold max (Ideal.ofBits .f32 0xFF800000#32) (fun l => S (ix3 p i l))) := by
  show Ideal.exp (S (ix3 p i j) - broadcastTo S512x16x16 (shapeCast S512x16x1
    (multiReduction .maximumf [2] S512x16 S 0xFF800000#32 reduces_S512x16x16_S512x16 (.inl rfl) rfl)
    shapeCasts_S512x16_S512x16x1) broadcasts_S512x16x1_S512x16x16 (ix3 p i j)) = _
  rw [broadcastTo_ab1_abc_apply, shapeCast_ab_ab1_apply, laneMax_apply]

/-- A weight at `(p, i, j)`: the exponential divided by its row's sum. -/
theorem normalised_apply (E : FVec Ideal S512x16x16 .f32) (p : Fin 512) (i j : Fin 16) :
    normalised E (ix3 p i j) = Ideal.div (E (ix3 p i j)) (∑ l : Fin 16, E (ix3 p i l)) := by
  show Ideal.div (E (ix3 p i j)) (broadcastTo S512x16x16 (shapeCast S512x16x1
    (multiReduction .add [2] S512x16 E 0x00000000#32 reduces_S512x16x16_S512x16 (.inl rfl) rfl)
    shapeCasts_S512x16_S512x16x1) broadcasts_S512x16x1_S512x16x16 (ix3 p i j)) = _
  rw [broadcastTo_ab1_abc_apply, shapeCast_ab_ab1_apply, laneSum_apply]

/-! ## The weighted values at an index -/

theorem av_l0 (j : S512x16x64.Idx) (q : dot_S512x16x16_S512x16x64_S512x16x64_2_1_1_2_0_0.contr.Idx) : (dot_S512x16x16_S512x16x64_S512x16x64_2_1_1_2_0_0.lhsIdx j q 0).val = (j 0).val := by
  unfold DotDims.lhsIdx
  rw [dif_pos (show (0 : Fin S512x16x16.rank) ∈ dot_S512x16x16_S512x16x64_S512x16x64_2_1_1_2_0_0.lhsBatch by decide)]
  rfl
theorem av_l1 (j : S512x16x64.Idx) (q : dot_S512x16x16_S512x16x64_S512x16x64_2_1_1_2_0_0.contr.Idx) : (dot_S512x16x16_S512x16x64_S512x16x64_2_1_1_2_0_0.lhsIdx j q 1).val = (j 1).val := by
  unfold DotDims.lhsIdx
  rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
  rfl
theorem av_l2 (j : S512x16x64.Idx) (q : dot_S512x16x16_S512x16x64_S512x16x64_2_1_1_2_0_0.contr.Idx) : (dot_S512x16x16_S512x16x64_S512x16x64_2_1_1_2_0_0.lhsIdx j q 2).val = (q ⟨0, by decide⟩).val :=
  dot_S512x16x16_S512x16x64_S512x16x64_2_1_1_2_0_0.lhsIdx_val_of_single rfl j q
theorem av_r0 (j : S512x16x64.Idx) (q : dot_S512x16x16_S512x16x64_S512x16x64_2_1_1_2_0_0.contr.Idx) : (dot_S512x16x16_S512x16x64_S512x16x64_2_1_1_2_0_0.rhsIdx j q 0).val = (j 0).val := by
  unfold DotDims.rhsIdx
  rw [dif_pos (show (0 : Fin S512x16x64.rank) ∈ dot_S512x16x16_S512x16x64_S512x16x64_2_1_1_2_0_0.rhsBatch by decide)]
  rfl
theorem av_r1 (j : S512x16x64.Idx) (q : dot_S512x16x16_S512x16x64_S512x16x64_2_1_1_2_0_0.contr.Idx) : (dot_S512x16x16_S512x16x64_S512x16x64_2_1_1_2_0_0.rhsIdx j q 1).val = (q ⟨0, by decide⟩).val :=
  dot_S512x16x16_S512x16x64_S512x16x64_2_1_1_2_0_0.rhsIdx_val_of_single rfl j q
theorem av_r2 (j : S512x16x64.Idx) (q : dot_S512x16x16_S512x16x64_S512x16x64_2_1_1_2_0_0.contr.Idx) : (dot_S512x16x16_S512x16x64_S512x16x64_2_1_1_2_0_0.rhsIdx j q 2).val = (j 2).val := by
  unfold DotDims.rhsIdx
  rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
  rfl

/-- The output of token `p`'s head `i` at lane `d`: the sum over the key heads of weight times value. -/
theorem mixed_apply (A : FVec Ideal S512x16x16 .bf16) (V : FVec Ideal S512x16x64 .bf16) (p : Fin 512) (i : Fin 16)
    (d : Fin 64) : mixed A V (ix3 p i d) = ∑ j : Fin 16, A (ix3 p i j) * V (ix3 p j d) := by
  unfold mixed
  refine (Ideal.matmul_constant_zero_apply dot_S512x16x16_S512x16x64_S512x16x64_2_1_1_2_0_0 none A V (ix3 p i d)).trans ?_
  rw [← Equiv.sum_comp (contrEquiv1 dot_S512x16x16_S512x16x64_S512x16x64_2_1_1_2_0_0 16 rfl rfl).symm]
  refine Finset.sum_congr rfl fun j _ => ?_
  have hj := contrEquiv1_symm_val dot_S512x16x16_S512x16x64_S512x16x64_2_1_1_2_0_0 16 rfl rfl j
  have el : dot_S512x16x16_S512x16x64_S512x16x64_2_1_1_2_0_0.lhsIdx (ix3 p i d) ((contrEquiv1 dot_S512x16x16_S512x16x64_S512x16x64_2_1_1_2_0_0 16 rfl rfl).symm j) = ix3 p i j := funext fun ax => Fin.ext (by
    match ax with
    | ⟨0, _⟩ => exact av_l0 _ _
    | ⟨1, _⟩ => exact av_l1 _ _
    | ⟨2, _⟩ => exact (av_l2 _ _).trans hj)
  have er : dot_S512x16x16_S512x16x64_S512x16x64_2_1_1_2_0_0.rhsIdx (ix3 p i d) ((contrEquiv1 dot_S512x16x16_S512x16x64_S512x16x64_2_1_1_2_0_0 16 rfl rfl).symm j) = ix3 p j d := funext fun ax => Fin.ext (by
    match ax with
    | ⟨0, _⟩ => exact av_r0 _ _
    | ⟨1, _⟩ => exact (av_r1 _ _).trans hj
    | ⟨2, _⟩ => exact av_r2 _ _)
  rw [el, er]

/-! ## The relayout at an index -/

/-- Row `i`, column `q = 64 p + d` of the head-major block is the output of token `p`'s head `i` at lane `d`. -/
theorem headMajorBlock_apply (O : FVec Ideal S512x16x64 .f32) (i : Fin 16) (q : Fin 32768) (p : Fin 512) (d : Fin 64)
    (hq : q.val = p.val * 64 + d.val) : headMajorBlock O (ix2 i q) = O (ix3 p i d) := by
  unfold headMajorBlock
  rw [shapeCast_abc_am_apply _ _ (by norm_num : 32768 = 512 * 64) i q p d hq, transpose_ix3_102_apply]

/-! ## The stored value at an index -/

/-- The block's stored value at row `i` and column `q = 64 p + d`: the attention output of head `i` at lane `d`
    for the projected row of the block's token `p`. -/
theorem stored_apply (x0 : Vec Ideal S512x1024 .f32) (x1 : Vec Ideal S1024x3072 .bf16) (x2 : Vec Ideal S3072 .f32)
    (i : Fin 16) (q : Fin 32768) (p : Fin 512) (d : Fin 64) (hq : q.val = p.val * 64 + d.val) :
    k0_pay1 (F := Ideal) x0 x1 x2 (ix2 i q)
      = headOut (fun c => (∑ k : Fin 1024, x0 (ix2 p k) * x1 (ix2 k c)) + x2 (ix1 c)) i d := by
  rw [pay_eq, headMajorBlock_apply _ i q p d hq, mixed_apply]
  unfold headOut weight expo rowMax score
  simp only [normalised_apply, shifted_apply, scores_apply, queries_apply, keys_apply, values_apply, qkvBlock_apply]

end Cert.KernelIdeal.Block

end
-- ==== Proof.KernelRun.lean ====
/-
  The kernel program's result array, as one function of its three arguments.

  The region runs the body at 64 grid points; point `t` reads rows `512 t … 512 t + 511` of the input, the whole
  transposed weight matrix (which the host wrote before the region: the weights transposed, narrowed to sixteen bits —
  the identity on extended reals) and the whole bias, and writes back columns `32768 t … 32768 t + 32767` of the
  `[16, 2097152]` head-major array.  By the block's stored value read at an index, what point `t` writes back is block
  `t` of the head-major array of the arguments; the 64 blocks cover that array; and the host's reshape after the region
  reads the array's entries in the same flat order into `[32768, 1024]`.
-/
import proofs.«114477_j34342558499464_2_alg».proof.Proof.Gen.KernelIdeal.Frame
import proofs.«114477_j34342558499464_2_alg».proof.Proof.BlockValue
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.HeadAttention Cert.KernelIdeal.Block

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The index maps over the grid: the input's block row and the output's block column are the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = t.val :=
  (by decide +kernel : ∀ t : Fin grid0.N, _)

/-! ## The arrays the region finds, and its blocks -/

/-- The second operand as the region finds it: the weights transposed (narrowing is the identity). -/
theorem wT_eq (c : Dev nD) : (V m c main_v1 : S1024x3072.Idx → Elt Ideal .bf16)
    = truncf .bf16 (transpose S1024x3072 [1, 0] (m ((c.tc : Thread nD τ).loc main_arg1))
        transposes_S3072x1024_S1024x3072_1_0 : FVec Ideal S1024x3072 .f32) bitsLt_bf16_f32 := by
  show StableHlo.after hostOps0 (fun b => m (c, b)) (Proc.devRef .tc main_v1) = _
  after_results

/-- Row `p` of the input's block at point `t` is row `512 t + p` of the input. -/
theorem iblk0_apply (c : Dev nD) (t : Fin cfg0.N) (p : Fin 512) (k : Fin 1024) (n : Fin 32768)
    (hn : n.val = t.val * 512 + p.val) :
    (iblk m c 0 t : Vec Ideal S512x1024 .f32) (ix2 p k)
      = (m ((c.tc : Thread nD τ).loc main_arg0) : S32768x1024.Idx → EReal) (ix2 n k) := by
  obtain ⟨e0, e1, -⟩ := idx_facts t
  unfold iblk
  rw [View.read_apply]
  show V m c main_arg0 _ = _
  refine (congrFun (V_main_arg0 m c) _).trans ?_
  refine congrArg _ (funext fun a => Fin.ext ?_)
  match a with
  | ⟨0, _⟩ => show win0_0.index t 0 * 512 + 1 * p.val = n.val; rw [e0, hn]; omega
  | ⟨1, _⟩ => show win0_0.index t 1 * 1024 + 1 * k.val = k.val; rw [e1]; omega

/-- The weights' block at every point is the whole transposed matrix: entry `(k, c')` is weight `(c', k)`. -/
theorem iblk1_apply (c : Dev nD) (t : Fin cfg0.N) (k : Fin 1024) (c' : Fin 3072) :
    (iblk m c 1 t : Vec Ideal S1024x3072 .bf16) (ix2 k c')
      = (m ((c.tc : Thread nD τ).loc main_arg1) : S3072x1024.Idx → EReal) (ix2 c' k) := by
  obtain ⟨-, -, e0, e1, -⟩ := idx_facts t
  unfold iblk
  rw [View.read_apply]
  show V m c main_v1 _ = _
  refine (congrFun (wT_eq m c) _).trans ?_
  have he : ((cfg0.win 1).blk t).view.emb (ix2 k c') = ix2 k c' := funext fun a => Fin.ext (by
    match a with
    | ⟨0, _⟩ => show win0_1.index t 0 * 1024 + 1 * k.val = k.val; rw [e0]; omega
    | ⟨1, _⟩ => show win0_1.index t 1 * 3072 + 1 * c'.val = c'.val; rw [e1]; omega)
  rw [he]
  exact transpose_ix2_apply _ _ k c'

/-- The bias' block at every point is the whole bias. -/
theorem iblk2_apply (c : Dev nD) (t : Fin cfg0.N) (c' : Fin 3072) :
    (iblk m c 2 t : Vec Ideal S3072 .f32) (ix1 c')
      = (m ((c.tc : Thread nD τ).loc main_arg2) : S3072.Idx → EReal) (ix1 c') := by
  obtain ⟨-, -, -, -, e0, -⟩ := idx_facts t
  unfold iblk
  rw [View.read_apply]
  show V m c main_arg2 _ = _
  refine (congrFun (V_main_arg2 m c) _).trans ?_
  refine congrArg _ (funext fun a => Fin.ext ?_)
  match a with
  | ⟨0, _⟩ => show win0_2.index t 0 * 3072 + 1 * c'.val = c'.val; rw [e0]; omega

/-! ## What a point writes back -/

theorem headOut_congr {x x' : Fin 3072 → EReal} {i i' : Fin 16} {d d' : Fin 64} (hx : x = x') (hi : i = i')
    (hd : d = d') : headOut x i d = headOut x' i' d' := by subst hx hi hd; rfl

/-- What point `t` writes back is block `t` of the head-major array of the arguments. -/
theorem flushed_eq (c : Dev nD) (t : Fin cfg0.N) :
    (dats m 0 c).flushed 3 t = ((cfg0.win 3).blk t).view.read (Elt Ideal) (headMajor (m ((c.tc : Thread nD τ).loc main_arg0)) (m ((c.tc : Thread nD τ).loc main_arg1)) (m ((c.tc : Thread nD τ).loc main_arg2))) := by
  obtain ⟨-, -, -, -, -, e0, e1⟩ := idx_facts t
  have ht : t.val < 64 := by have h := t.isLt; have e : cfg0.N = 64 := N_0; omega
  show (cfg0.win 3).cut (grid0.coords t) ((dats m 0 c).after 3 t) = _
  rw [after0_3]
  unfold out0_3
  rw [View.canon_unit_zero hz2]
  simp only [View.ld_unit_zero (S := S512x1024) hz2, View.ld_unit_zero (S := S1024x3072) hz2,
    View.ld_unit_zero (S := S3072) hz1]
  funext y
  obtain ⟨i, q, rfl⟩ : ∃ (i : Fin 16) (q : Fin 32768), y = ix2 i q := ⟨y 0, y 1, eq_ix2 y⟩
  have hq := q.isLt
  have hi := i.isLt
  show k0_pay1 (F := Ideal) (iblk m c 0 t) (iblk m c 1 t) (iblk m c 2 t) (ix2 i q)
    = headMajor (m ((c.tc : Thread nD τ).loc main_arg0)) (m ((c.tc : Thread nD τ).loc main_arg1)) (m ((c.tc : Thread nD τ).loc main_arg2)) (((cfg0.win 3).blk t).view.emb (ix2 i q))
  have hemb : ((cfg0.win 3).blk t).view.emb (ix2 i q)
      = ix2 i (⟨t.val * 32768 + q.val, by omega⟩ : Fin 2097152) := funext fun a => Fin.ext (by
    match a with
    | ⟨0, _⟩ => show win0_3.index t 0 * 16 + 1 * i.val = i.val; rw [e0]; omega
    | ⟨1, _⟩ => show win0_3.index t 1 * 32768 + 1 * q.val = t.val * 32768 + q.val; rw [e1]; omega)
  refine Eq.trans ?_ (congrArg (headMajor (m ((c.tc : Thread nD τ).loc main_arg0)) (m ((c.tc : Thread nD τ).loc main_arg1)) (m ((c.tc : Thread nD τ).loc main_arg2))) hemb.symm)
  refine (stored_apply (iblk m c 0 t) (iblk m c 1 t) (iblk m c 2 t) i q ⟨q.val / 64, by omega⟩ ⟨q.val % 64, by omega⟩
    (by show q.val = q.val / 64 * 64 + q.val % 64; omega)).trans ?_
  show _ = headOut (tokenRow (m ((c.tc : Thread nD τ).loc main_arg0)) (m ((c.tc : Thread nD τ).loc main_arg1)) (m ((c.tc : Thread nD τ).loc main_arg2)) ⟨(t.val * 32768 + q.val) / 64, by omega⟩) i ⟨(t.val * 32768 + q.val) % 64, by omega⟩
  refine headOut_congr (funext fun c' => ?_) rfl (Fin.ext (by show q.val % 64 = (t.val * 32768 + q.val) % 64; omega))
  unfold tokenRow
  refine congrArg₂ (· + ·) (Finset.sum_congr rfl fun k _ => ?_) (iblk2_apply m c t c')
  exact congrArg₂ (· * ·)
    (iblk0_apply m c t ⟨q.val / 64, by omega⟩ k _ (by show (t.val * 32768 + q.val) / 64 = t.val * 512 + q.val / 64; omega))
    (iblk1_apply m c t k c')

/-! ## The array after the region -/

/-- An index of the head-major array is in point `t`'s block iff each coordinate is in the block's range. -/
theorem mem_blk (t : Fin cfg0.N) (i : S16x2097152.Idx) :
    i ∈ ((cfg0.win 3).blk t).view.set ↔ ∀ a : Fin 2, win0_3.index t a * S16x32768.size a ≤ (i a).val
      ∧ (i a).val < win0_3.index t a * S16x32768.size a + S16x32768.size a := by
  show i ∈ ((View.whole main_v2).slice (win0_3.rect t)).set ↔ _
  rw [View.set_slice_whole, Rect.mem_set_unit]
  exact Iff.rfl

/-- The 64 blocks cover the head-major array, so after the region it is the head-major array of the arguments. -/
theorem final (c : Dev nD) : (dats m 0 c).arrAt 3 cfg0.N = headMajor (m ((c.tc : Thread nD τ).loc main_arg0)) (m ((c.tc : Thread nD τ).loc main_arg1)) (m ((c.tc : Thread nD τ).loc main_arg2)) :=
  (dats m 0 c).arrAt_eq_of_cover 3 _ (fun t _ => flushed_eq m c t) fun i => by
    have h0 : (i 0).val < 16 := (i 0).isLt
    have h1 : (i 1).val < 2097152 := (i 1).isLt
    have hN : cfg0.N = 64 := N_0
    refine ⟨⟨(i 1).val / 32768, by omega⟩, flush0_3 _, ?_⟩
    obtain ⟨-, -, -, -, -, e0, e1⟩ := idx_facts ⟨(i 1).val / 32768, by omega⟩
    rw [mem_blk]
    intro a
    match a with
    | ⟨0, _⟩ =>
      show win0_3.index _ 0 * 16 ≤ (i 0).val ∧ (i 0).val < win0_3.index _ 0 * 16 + 16
      rw [e0]; omega
    | ⟨1, _⟩ =>
      show win0_3.index _ 1 * 32768 ≤ (i 1).val ∧ (i 1).val < win0_3.index _ 1 * 32768 + 32768
      rw [e1]
      show (i 1).val / 32768 * 32768 ≤ (i 1).val ∧ (i 1).val < (i 1).val / 32768 * 32768 + 32768
      omega

/-! ## The host's reshape after the region -/

/-- The head-major array read in flat order into `[32768, 1024]` is the result array. -/
theorem reshape_eq (H : S32768x1024.Idx → EReal) (W : S3072x1024.Idx → EReal) (B : S3072.Idx → EReal) :
    shapeCast S32768x1024 (headMajor H W B) shapeCasts_S16x2097152_S32768x1024 = result H W B := by
  funext i
  obtain ⟨r, c, rfl⟩ : ∃ (r : Fin 32768) (c : Fin 1024), i = ix2 r c := ⟨i 0, i 1, eq_ix2 i⟩
  have hr := r.isLt
  have hc := c.isLt
  refine (shapeCast_apply _ _ (ix2 r c)
    (ix2 (⟨(r.val * 1024 + c.val) / 2097152, by omega⟩ : Fin 16) (⟨(r.val * 1024 + c.val) % 2097152, by omega⟩ : Fin 2097152))
    (by
      rw [Shape.rowMajor_val_two, Shape.rowMajor_val_two]
      show (r.val * 1024 + c.val) / 2097152 * 2097152 + (r.val * 1024 + c.val) % 2097152 = r.val * 1024 + c.val
      omega)).trans ?_
  rfl

/-- The program's result buffer after the host's reshape: the array the region left, read in flat order. -/
theorem tail_eq (c : Dev nD) :
    Pipeline.afterTail₀ cfgs (dats m) 0 (V0 m) [hostOps1] c main_v3
      = shapeCast S32768x1024 ((dats m 0 c).arrAt 3 cfg0.N) shapeCasts_S16x2097152_S32768x1024 := by
  unfold Pipeline.afterTail₀
  show StableHlo.after hostOps1 _ (Proc.devRef .tc main_v3) = _
  after_results
  exact congrArg (fun A => shapeCast S32768x1024 A shapeCasts_S16x2097152_S32768x1024)
    (Pipeline.withArrays_arr spec0 launch0.win.arr_inj c (V0 m c) (fun w => (dats m 0 c).arrAt w cfg0.N) 3)

/-! ## The run -/

/-- Every weakly fair execution of the kernel program ends with its result buffer at the result array of its three
    arguments, and the arguments as they were. -/
theorem run : θ_run defs (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans
        ((tail_eq m c).trans (by rw [final]; exact reshape_eq _ _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Whole

end
-- ==== Proof.ReferenceValue.lean ====
/-
  The reference's result, read at an index.

  The reference projects every token's row (one matrix product of the whole input with the transposed weights, plus the
  bias broadcast down the rows), views the 3072 columns as 3 × 16 × 64 and takes the three slabs as queries, keys and
  values, forms the scores of every head pair per token, divides them by 32, normalises each row by a softmax (whose
  row maximum is taken once more against `-∞`, and whose row sum starts from `0`), applies the weights to the values,
  and lists the outputs head-major by a transpose and a flat reshape.  Read one stage at a time at an index given by
  coordinates, each stage is the corresponding function of the token's projected row; the division by 32 is the
  product with `1/32`, the extra maximum changes nothing, and `0 +` a sum is the sum.
-/
import proofs.«114477_j34342558499464_2_alg».proof.Proof.Gen.ReferenceIdeal.Read
import proofs.«114477_j34342558499464_2_alg».proof.Proof.HeadAttention
import proofs.«114477_j34342558499464_2_alg».proof.Proof.LibHeadLayout

noncomputable section

namespace Cert.ReferenceIdeal.RefValue

open Idealize.ShloMosaic Idealize.ShloMosaic.ValueIdx
open Cert.ReferenceIdeal Cert.ReferenceIdeal.Gen Cert.ReferenceIdeal.Read Cert.HeadAttention Cert.HeadLayout

variable (X0 : (⟨S32768x1024, .f32⟩ : BufTy).Contents (Elt Ideal)) (X1 : (⟨S3072x1024, .f32⟩ : BufTy).Contents (Elt Ideal)) (X2 : (⟨S3072, .f32⟩ : BufTy).Contents (Elt Ideal))

/-! ## The projected rows -/

/-- The projection at `(n, c)` is entry `c` of token `n`'s projected row. -/
theorem ref_row (n : Fin 32768) (c : Fin 3072) :
    val_main_v4 (F := Ideal) X0 X1 X2 (ix2 n c) = tokenRow X0 X1 X2 n c := by
  have e1 : ∀ k : Fin 1024, lidx_main_v1 (ix2 n c) k = ix2 n k := fun k => funext fun a => Fin.ext (by
    match a with
    | ⟨0, _⟩ => rfl
    | ⟨1, _⟩ => rfl)
  have e2 : ∀ k : Fin 1024, idx_main_v0 (ridx_main_v1 (ix2 n c) k) = ix2 c k := fun k => funext fun a => Fin.ext (by
    match a with
    | ⟨0, _⟩ => rfl
    | ⟨1, _⟩ => rfl)
  have e3 : idx_main_v2 (idx_main_v3 (ix2 n c)) = ix1 c := funext fun a => Fin.ext (by
    match a with
    | ⟨0, _⟩ => rfl)
  rw [val_main_v4_apply, val_main_v1_apply, val_main_v3_apply, val_main_v2_apply]
  unfold tokenRow
  simp only [val_main_v0_apply, e1, e2, e3, Ideal.addf_def]

/-! ## The three slabs -/

/-- Head `i`'s query of token `n` at lane `e`. -/
theorem ref_q (n : Fin 32768) (i : Fin 16) (e : Fin 64) :
    val_main_v7 (F := Ideal) X0 X1 X2 (ix3 n i e) = tokenRow X0 X1 X2 n (qcol i e) := by
  have h : idx_main_v5 (idx_main_v6 (idx_main_v7 (ix3 n i e))) = ix2 n (qcol i e) := funext fun a => Fin.ext (by
    have hn := n.isLt; have hi := i.isLt; have he := e.isLt
    match a with
    | ⟨0, _⟩ =>
      show ((((((n.val * 16 + i.val) * 64 + e.val) / 1024) * 3 + 0) * 16 + ((n.val * 16 + i.val) * 64 + e.val) / 64 % 16) * 64 + ((n.val * 16 + i.val) * 64 + e.val) % 64) / 3072 = n.val
      omega
    | ⟨1, _⟩ =>
      show ((((((n.val * 16 + i.val) * 64 + e.val) / 1024) * 3 + 0) * 16 + ((n.val * 16 + i.val) * 64 + e.val) / 64 % 16) * 64 + ((n.val * 16 + i.val) * 64 + e.val) % 64) % 3072 = _
      show _ = i.val * 64 + e.val
      omega)
  rw [val_main_v7_apply, val_main_v6_apply, val_main_v5_apply, h, ref_row]

/-- Head `i`'s key of token `n` at lane `e`. -/
theorem ref_k (n : Fin 32768) (i : Fin 16) (e : Fin 64) :
    val_main_v9 (F := Ideal) X0 X1 X2 (ix3 n i e) = tokenRow X0 X1 X2 n (kcol i e) := by
  have h : idx_main_v5 (idx_main_v8 (idx_main_v9 (ix3 n i e))) = ix2 n (kcol i e) := funext fun a => Fin.ext (by
    have hn := n.isLt; have hi := i.isLt; have he := e.isLt
    match a with
    | ⟨0, _⟩ =>
      show ((((((n.val * 16 + i.val) * 64 + e.val) / 1024) * 3 + (1 + 0)) * 16 + ((n.val * 16 + i.val) * 64 + e.val) / 64 % 16) * 64 + ((n.val * 16 + i.val) * 64 + e.val) % 64) / 3072 = n.val
      omega
    | ⟨1, _⟩ =>
      show ((((((n.val * 16 + i.val) * 64 + e.val) / 1024) * 3 + (1 + 0)) * 16 + ((n.val * 16 + i.val) * 64 + e.val) / 64 % 16) * 64 + ((n.val * 16 + i.val) * 64 + e.val) % 64) % 3072 = _
      show _ = 1024 + (i.val * 64 + e.val)
      omega)
  rw [val_main_v9_apply, val_main_v8_apply, val_main_v5_apply, h, ref_row]

/-- Head `i`'s value of token `n` at lane `e`. -/
theorem ref_v (n : Fin 32768) (i : Fin 16) (e : Fin 64) :
    val_main_v11 (F := Ideal) X0 X1 X2 (ix3 n i e) = tokenRow X0 X1 X2 n (vcol i e) := by
  have h : idx_main_v5 (idx_main_v10 (idx_main_v11 (ix3 n i e))) = ix2 n (vcol i e) := funext fun a => Fin.ext (by
    have hn := n.isLt; have hi := i.isLt; have he := e.isLt
    match a with
    | ⟨0, _⟩ =>
      show ((((((n.val * 16 + i.val) * 64 + e.val) / 1024) * 3 + (2 + 0)) * 16 + ((n.val * 16 + i.val) * 64 + e.val) / 64 % 16) * 64 + ((n.val * 16 + i.val) * 64 + e.val) % 64) / 3072 = n.val
      omega
    | ⟨1, _⟩ =>
      show ((((((n.val * 16 + i.val) * 64 + e.val) / 1024) * 3 + (2 + 0)) * 16 + ((n.val * 16 + i.val) * 64 + e.val) / 64 % 16) * 64 + ((n.val * 16 + i.val) * 64 + e.val) % 64) % 3072 = _
      show _ = 2048 + (i.val * 64 + e.val)
      omega)
  rw [val_main_v11_apply, val_main_v10_apply, val_main_v5_apply, h, ref_row]

/-! ## Scores and softmax -/

/-- The score of token `n`'s head pair `(i, j)`: the division by 32 is the product with `1/32`. -/
theorem ref_score (n : Fin 32768) (i j : Fin 16) :
    val_main_v14 (F := Ideal) X0 X1 X2 (ix3 n i j) = score (tokenRow X0 X1 X2 n) i j := by
  have el : ∀ e : Fin 64, lidx_main_v12 (ix3 n i j) e = ix3 n i e := fun e => funext fun a => Fin.ext (by
    match a with
    | ⟨0, _⟩ => rfl
    | ⟨1, _⟩ => rfl
    | ⟨2, _⟩ => rfl)
  have er : ∀ e : Fin 64, ridx_main_v12 (ix3 n i j) e = ix3 n j e := fun e => funext fun a => Fin.ext (by
    match a with
    | ⟨0, _⟩ => rfl
    | ⟨1, _⟩ => rfl
    | ⟨2, _⟩ => rfl)
  rw [val_main_v14_apply, val_main_v12_apply, val_main_v13_apply, val_main_cst_apply]
  unfold score
  simp only [el, er, ref_q, ref_k, Ideal.hostDivf_def, Ideal.ofBits_def]
  exact div32_eq _

/-- The row maximum of token `n`'s head `i`: taking it once more against `-∞` changes nothing. -/
theorem ref_max (n : Fin 32768) (i : Fin 16) :
    val_main_v17 (F := Ideal) X0 X1 X2 (ix2 n i) = rowMax (tokenRow X0 X1 X2 n) i := by
  rw [val_main_v17_apply, val_main_v16_apply, val_main_cst_1_apply]
  unfold val_main_v15
  rw [hostLaneMax_apply _ _ _ (by decide) _ n i]
  unfold rowMax
  simp only [Ideal.maximumf_def, Ideal.ofBits_def, ref_score, val_main_cst_0_apply]
  exact max_init_fold _ _

/-- The shifted exponential of token `n`'s head pair `(i, j)`. -/
theorem ref_exp (n : Fin 32768) (i j : Fin 16) :
    val_main_v21 (F := Ideal) X0 X1 X2 (ix3 n i j) = expo (tokenRow X0 X1 X2 n) i j := by
  have h : idx_main_v18 (idx_main_v19 (ix3 n i j)) = ix2 n i := funext fun a => Fin.ext (by
    match a with
    | ⟨0, _⟩ => rfl
    | ⟨1, _⟩ => rfl)
  rw [val_main_v21_apply, val_main_v20_apply, val_main_v19_apply, val_main_v18_apply, h, ref_max, ref_score]
  rfl

/-- The softmax weight of token `n`'s head pair `(i, j)`: the row sum started from `0` is the row sum. -/
theorem ref_weight (n : Fin 32768) (i j : Fin 16) :
    val_main_v25 (F := Ideal) X0 X1 X2 (ix3 n i j) = weight (tokenRow X0 X1 X2 n) i j := by
  have h : idx_main_v23 (idx_main_v24 (ix3 n i j)) = ix2 n i := funext fun a => Fin.ext (by
    match a with
    | ⟨0, _⟩ => rfl
    | ⟨1, _⟩ => rfl)
  have hs : ∀ l : Fin 16, idx_main_v22 (ix2 n i) l = ix3 n i l := fun l => funext fun a => Fin.ext (by
    match a with
    | ⟨0, _⟩ => rfl
    | ⟨1, _⟩ => rfl
    | ⟨2, _⟩ => rfl)
  rw [val_main_v25_apply, val_main_v24_apply, val_main_v23_apply, h, val_main_v22_apply, val_main_cst_2_apply]
  unfold weight
  simp only [hs, ref_exp, Ideal.hostDivf_def, Ideal.ofBits_def, Ideal.ofBits_zero_f32, zero_add]

/-! ## The outputs and their order -/

/-- The output of token `n`'s head `i` at lane `d`. -/
theorem ref_out (n : Fin 32768) (i : Fin 16) (d : Fin 64) :
    val_main_v26 (F := Ideal) X0 X1 X2 (ix3 n i d) = headOut (tokenRow X0 X1 X2 n) i d := by
  have el : ∀ j : Fin 16, lidx_main_v26 (ix3 n i d) j = ix3 n i j := fun j => funext fun a => Fin.ext (by
    match a with
    | ⟨0, _⟩ => rfl
    | ⟨1, _⟩ => rfl
    | ⟨2, _⟩ => rfl)
  have er : ∀ j : Fin 16, ridx_main_v26 (ix3 n i d) j = ix3 n j d := fun j => funext fun a => Fin.ext (by
    match a with
    | ⟨0, _⟩ => rfl
    | ⟨1, _⟩ => rfl
    | ⟨2, _⟩ => rfl)
  rw [val_main_v26_apply]
  unfold headOut
  simp only [el, er, ref_weight, ref_v]

/-- The reference's result is the result array: flat position `f = 1024 r + c` of the head-major order holds head
    `f / 2097152` of token `(f mod 2097152) / 64` at lane `f mod 64`. -/
theorem ref_result : val_main_v28 (F := Ideal) X0 X1 X2 = result X0 X1 X2 := by
  funext i
  obtain ⟨r, c, rfl⟩ : ∃ (r : Fin 32768) (c : Fin 1024), i = ix2 r c := ⟨i 0, i 1, eq_ix2 i⟩
  have hr := r.isLt
  have hc := c.isLt
  have h : idx_main_v27 (idx_main_v28 (ix2 r c))
      = ix3 (⟨(r.val * 1024 + c.val) % 2097152 / 64, by omega⟩ : Fin 32768)
          (⟨(r.val * 1024 + c.val) / 2097152, by omega⟩ : Fin 16)
          (⟨(r.val * 1024 + c.val) % 2097152 % 64, by omega⟩ : Fin 64) := funext fun a => Fin.ext (by
    match a with
    | ⟨0, _⟩ =>
      show (r.val * 1024 + c.val) / 64 % 32768 = (r.val * 1024 + c.val) % 2097152 / 64
      omega
    | ⟨1, _⟩ => rfl
    | ⟨2, _⟩ =>
      show (r.val * 1024 + c.val) % 64 = (r.val * 1024 + c.val) % 2097152 % 64
      omega)
  rw [val_main_v28_apply, val_main_v27_apply, h, ref_out]
  rfl

end Cert.ReferenceIdeal.RefValue

end
-- ==== Proof.lean ====
/-
  A fused projection and per-token attention across sixteen heads, against its reference, over the extended reals.

  Both programs compute, for every token `n`, the projected row `x c = (∑ k, h (n, k) · W (c, k)) + b c` of 3072
  entries, read it as sixteen queries, keys and values of 64 lanes, take the scores of every head pair (a dot product
  over the lanes, scaled by `1/32`), normalise each score row by a softmax, form the weighted sums of the values, and
  list the outputs head-major: flat position `2097152 i + 64 n + d` holds head `i` of token `n` at lane `d`.

  The kernel program does this 512 tokens at a time and writes its blocks side by side into a `[16, 2097152]` array that
  the host then reads in flat order (KernelRun.lean, over the block's value in BlockValue.lean); the reference does it
  for all tokens at once and orders the outputs by a transpose and a flat reshape (ReferenceValue.lean).  They differ
  in how three numbers are spelt — a product with `1/32` against a division by `32`, a row maximum taken once more
  against `-∞`, a row sum started from `0` — and not in value, on every extended real: no finiteness of the inputs is
  used.  Narrowing to sixteen bits is the identity here, and the idealization rewrote nothing, so what it preserves is
  trivial.  The three frames are the generated runs.
-/
import proofs.«114477_j34342558499464_2_alg».proof.Defs
import proofs.«114477_j34342558499464_2_alg».proof.Proof.Gen.Kernel
import proofs.«114477_j34342558499464_2_alg».proof.Proof.Gen.Kernel.Skeleton
import proofs.«114477_j34342558499464_2_alg».proof.Proof.Gen.Kernel.Launch
import proofs.«114477_j34342558499464_2_alg».proof.Proof.Gen.Kernel.Points
import proofs.«114477_j34342558499464_2_alg».proof.Proof.Gen.Kernel.Frame
import proofs.«114477_j34342558499464_2_alg».proof.Proof.Gen.KernelIdeal
import proofs.«114477_j34342558499464_2_alg».proof.Proof.Gen.KernelIdeal.Skeleton
import proofs.«114477_j34342558499464_2_alg».proof.Proof.Gen.KernelIdeal.Launch
import proofs.«114477_j34342558499464_2_alg».proof.Proof.Gen.KernelIdeal.Points
import proofs.«114477_j34342558499464_2_alg».proof.Proof.Gen.KernelIdeal.Frame
import proofs.«114477_j34342558499464_2_alg».proof.Proof.Gen.ReferenceIdeal
import proofs.«114477_j34342558499464_2_alg».proof.Proof.Gen.ReferenceIdeal.Run
import proofs.«114477_j34342558499464_2_alg».proof.Proof.Gen.ReferenceIdeal.Read
import proofs.«114477_j34342558499464_2_alg».proof.Proof.Gen.Pre_finite_inputs
import proofs.«114477_j34342558499464_2_alg».proof.Proof.KernelRun
import proofs.«114477_j34342558499464_2_alg».proof.Proof.ReferenceValue
import Idealize.ShloMosaic.Adequacy
import Idealize.ShloMosaic.Init

noncomputable section

namespace Cert.Proof

open Idealize.ShloMosaic Idealize.SL.Sem Cert.Kernel

/-- The word-level kernel program runs, and its arguments end unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the result array of those arguments. -/
theorem algebraic : Cert.algebraic_KernelIdeal_ReferenceIdeal := by
  intro m ρ m' ρ' _ hagree
  refine ⟨fun c => Cert.HeadAttention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_result,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
